-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x256 : Shape := ⟨3, ![128, 128, 256]⟩
abbrev S128x128x32x32 : Shape := ⟨4, ![128, 128, 32, 32]⟩
abbrev S_ : Shape := ⟨0, ![]⟩

class Facts : Prop where
  bcast_S_S128x128x256 : S_.BroadcastsInDim S128x128x256 (![] : Fin 0 → Fin S128x128x256.rank)
  reducesTo_S128x128x256_S_d0_1_2 : S128x128x256.ReducesTo [0, 1, 2] S_
  h_S_ : 0 < S_.numel
  bcast_S_S128x128x32x32 : S_.BroadcastsInDim S128x128x32x32 (![] : Fin 0 → Fin S128x128x32x32.rank)
  reducesTo_S128x128x32x32_S_d0_1_2_3 : S128x128x32x32.ReducesTo [0, 1, 2, 3] S_

variable [Facts]

def fn {F : FTy → Type} [FloatOps F] (main_arg0 : FVec F S128x128x256 .f32) (main_arg1 : FVec F S128x128x32x32 .f32) : IVec S_ 1 :=
  let main_v0 : FVec F S128x128x256 .f32 := Host.absf main_arg0
  let main_cst : FVec F S_ .f32 := constant S_ .f32 0x7F800000#32
  let main_v1 : FVec F S128x128x256 .f32 := broadcastInDim S128x128x256 ![] bcast_S_S128x128x256 main_cst
  let main_v2 : IVec S128x128x256 1 := cmpf .olt main_v0 main_v1
  let main_c : IVec S_ 1 := constantI S_ 1 1#1
  let main_v3 : IVec S_ 1 := (fun x v => Host.reduce IntOp.andi x v reducesTo_S128x128x256_S_d0_1_2 h_S_) main_v2 main_c
  let main_v4 : FVec F S128x128x32x32 .f32 := Host.absf main_arg1
  let main_cst_0 : FVec F S_ .f32 := constant S_ .f32 0x7F800000#32
  let main_v5 : FVec F S128x128x32x32 .f32 := broadcastInDim S128x128x32x32 ![] bcast_S_S128x128x32x32 main_cst_0
  let main_v6 : IVec S128x128x32x32 1 := cmpf .olt main_v4 main_v5
  let main_c_1 : IVec S_ 1 := constantI S_ 1 1#1
  let main_v7 : IVec S_ 1 := (fun x v => Host.reduce IntOp.andi x v reducesTo_S128x128x32x32_S_d0_1_2_3 h_S_) main_v6 main_c_1
  let main_v8 : IVec S_ 1 := andi main_v3 main_v7
  main_v8
-- ==== Kernel.lean ====
abbrev S128x128x256 : Shape := ⟨3, ![128, 128, 256]⟩
abbrev S128x128x32x32 : Shape := ⟨4, ![128, 128, 32, 32]⟩
abbrev S128x128x1024 : Shape := ⟨3, ![128, 128, 1024]⟩
abbrev S128x256x1024 : Shape := ⟨3, ![128, 256, 1024]⟩
abbrev S2x128x1024 : Shape := ⟨3, ![2, 128, 1024]⟩
abbrev S2x128x256 : Shape := ⟨3, ![2, 128, 256]⟩
abbrev S2x256x1024 : Shape := ⟨3, ![2, 256, 1024]⟩
abbrev S2x1024 : Shape := ⟨2, ![2, 1024]⟩
abbrev S2x1x1024 : Shape := ⟨3, ![2, 1, 1024]⟩
abbrev S2x256 : Shape := ⟨2, ![2, 256]⟩
abbrev S2x256x1 : Shape := ⟨3, ![2, 256, 1]⟩
abbrev S128x256x32x32 : Shape := ⟨4, ![128, 256, 32, 32]⟩

abbrev nBuf : Space → Nat
  | .hbm => 6
  | .vmem => 8
  | .smem => 0
  | _ => 0

abbrev bufTy : (tb : Table) → Fin (tcTables nBuf tb) → BufTy
  | .hbm, ⟨0, _⟩ => ⟨S128x128x256, .f32⟩
  | .hbm, ⟨1, _⟩ => ⟨S128x128x32x32, .f32⟩
  | .hbm, ⟨2, _⟩ => ⟨S128x128x1024, .f32⟩
  | .hbm, ⟨3, _⟩ => ⟨S128x128x256, .f32⟩
  | .hbm, ⟨4, _⟩ => ⟨S128x256x1024, .f32⟩
  | .hbm, ⟨5, _⟩ => ⟨S128x256x32x32, .f32⟩
  | .local _ .vmem, ⟨0, _⟩ => ⟨S2x128x1024, .f32⟩
  | .local _ .vmem, ⟨1, _⟩ => ⟨S2x128x1024, .f32⟩
  | .local _ .vmem, ⟨2, _⟩ => ⟨S2x128x256, .f32⟩
  | .local _ .vmem, ⟨3, _⟩ => ⟨S2x128x256, .f32⟩
  | .local _ .vmem, ⟨4, _⟩ => ⟨S2x128x256, .f32⟩
  | .local _ .vmem, ⟨5, _⟩ => ⟨S2x128x256, .f32⟩
  | .local _ .vmem, ⟨6, _⟩ => ⟨S2x256x1024, .f32⟩
  | .local _ .vmem, ⟨7, _⟩ => ⟨S2x256x1024, .f32⟩
  | _, _ => ⟨S128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x128x32x32_S128x128x1024 : S128x128x32x32.ShapeCasts S128x128x1024
  inb_S2x128x1024_S2x128x1024_0_0_0 : ∀ a, (![0, 0, 0] : Fin 3 → Nat) a + S2x128x1024.size a ≤ S2x128x1024.size a
  h_S2x128x1024 : 0 < S2x128x1024.numel
  shapeCasts_S2x128x1024_S2x128x1024 : S2x128x1024.ShapeCasts S2x128x1024
  inb_S2x128x256_S2x128x256_0_0_0 : ∀ a, (![0, 0, 0] : Fin 3 → Nat) a + S2x128x256.size a ≤ S2x128x256.size a
  h_S2x128x256 : 0 < S2x128x256.numel
  bitsLt_bf16_f32 : FTy.bits .bf16 < FTy.bits .f32
  reduces_S2x256x1024_S2x1024 : S2x256x1024.Reduces [1] S2x1024
  shapeCasts_S2x1024_S2x1x1024 : S2x1024.ShapeCasts S2x1x1024
  broadcasts_S2x1x1024_S2x256x1024 : S2x1x1024.Broadcasts S2x256x1024
  reduces_S2x256x1024_S2x256 : S2x256x1024.Reduces [2] S2x256
  shapeCasts_S2x256_S2x256x1 : S2x256.ShapeCasts S2x256x1
  broadcasts_S2x256x1_S2x256x1024 : S2x256x1.Broadcasts S2x256x1024
  inb_S2x256x1024_S2x256x1024_0_0_0 : ∀ a, (![0, 0, 0] : Fin 3 → Nat) a + S2x256x1024.size a ≤ S2x256x1024.size a
  h_S2x256x1024 : 0 < S2x256x1024.numel
  shapeCasts_S128x256x1024_S128x256x32x32 : S128x256x1024.ShapeCasts S128x256x32x32
  dot_S2x128x256_S2x128x1024_S2x256x1024_1_1_2_2_0_0_wf : DotDims.WF S2x128x256 S2x128x1024 S2x256x1024 [1] [1] [2] [2] [0] [0]
  dot_S2x128x1024_S2x256x1024_S2x128x256_2_2_1_1_0_0_wf : DotDims.WF S2x128x1024 S2x256x1024 S2x128x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x1024.size a ≤ S128x128x1024.size a
  hwx0_0 : ∀ i : grid0.Coords, EltTy.bits .f32 = 32 ∨ (Rect.block (s := S128x128x1024) S2x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x256.size a ≤ S128x128x256.size a
  hwx0_1 : ∀ i : grid0.Coords, EltTy.bits .f32 = 32 ∨ (Rect.block (s := S128x128x256) S2x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x256.size a ≤ S128x128x256.size a
  hwx0_2 : ∀ i : grid0.Coords, EltTy.bits .f32 = 32 ∨ (Rect.block (s := S128x128x256) S2x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x1024.size a ≤ S128x256x1024.size a
  hwx0_3 : ∀ i : grid0.Coords, EltTy.bits .f32 = 32 ∨ (Rect.block (s := S128x256x1024) S2x256x1024.size (cc0_transform_3 i) (hinb0_3 i)).WholeWords (EltTy.packing .f32)

variable [Facts₀]

def dot_S2x128x256_S2x128x1024_S2x256x1024_1_1_2_2_0_0 : DotDims S2x128x256 S2x128x1024 S2x256x1024 where
  lhsContracting := [1]
  rhsContracting := [1]
  lhsNonContracting := [2]
  rhsNonContracting := [2]
  lhsBatch := [0]
  rhsBatch := [0]
  wf := dot_S2x128x256_S2x128x1024_S2x256x1024_1_1_2_2_0_0_wf
def dot_S2x128x1024_S2x256x1024_S2x128x256_2_2_1_1_0_0 : DotDims S2x128x1024 S2x256x1024 S2x128x256 where
  lhsContracting := [2]
  rhsContracting := [2]
  lhsNonContracting := [1]
  rhsNonContracting := [1]
  lhsBatch := [0]
  rhsBatch := [0]
  wf := dot_S2x128x1024_S2x256x1024_S2x128x256_2_2_1_1_0_0_wf

abbrev win0_0 : Pipeline.Window sig grid0 :=
  Pipeline.Window.ofSpec (Memref.whole main_v0) S2x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x128x256 : Shape := ⟨3, ![128, 128, 256]⟩
abbrev S128x128x32x32 : Shape := ⟨4, ![128, 128, 32, 32]⟩
abbrev S128x128x1024 : Shape := ⟨3, ![128, 128, 1024]⟩
abbrev S128x1024x256 : Shape := ⟨3, ![128, 1024, 256]⟩
abbrev S_ : Shape := ⟨0, ![]⟩
abbrev S128x1024 : Shape := ⟨2, ![128, 1024]⟩
abbrev S128x1024x1 : Shape := ⟨3, ![128, 1024, 1]⟩
abbrev S128x256x1024 : Shape := ⟨3, ![128, 256, 1024]⟩
abbrev S128x256 : Shape := ⟨2, ![128, 256]⟩
abbrev S128x256x1 : Shape := ⟨3, ![128, 256, 1]⟩
abbrev S128x256x32x32 : Shape := ⟨4, ![128, 256, 32, 32]⟩

abbrev nBuf : Space → Nat
  | .hbm => 38
  | .vmem => 0
  | .smem => 0
  | _ => 0

abbrev bufTy : (tb : Table) → Fin (tcTables nBuf tb) → BufTy
  | .hbm, ⟨0, _⟩ => ⟨S128x128x256, .f32⟩
  | .hbm, ⟨1, _⟩ => ⟨S128x128x32x32, .f32⟩
  | .hbm, ⟨2, _⟩ => ⟨S128x128x1024, .f32⟩
  | .hbm, ⟨3, _⟩ => ⟨S128x1024x256, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S128x1024x1, .f32⟩
  | .hbm, ⟨10, _⟩ => ⟨S128x1024x256, .f32⟩
  | .hbm, ⟨11, _⟩ => ⟨S128x1024x256, .f32⟩
  | .hbm, ⟨12, _⟩ => ⟨S128x1024x256, .f32⟩
  | .hbm, ⟨13, _⟩ => ⟨S_, .f32⟩
  | .hbm, ⟨14, _⟩ => ⟨S128x1024, .f32⟩
  | .hbm, ⟨15, _⟩ => ⟨S128x1024x1, .f32⟩
  | .hbm, ⟨16, _⟩ => ⟨S128x1024x256, .f32⟩
  | .hbm, ⟨17, _⟩ => ⟨S128x1024x256, .f32⟩
  | .hbm, ⟨18, _⟩ => ⟨S128x256x1024, .f32⟩
  | .hbm, ⟨19, _⟩ => ⟨S_, .f32⟩
  | .hbm, ⟨20, _⟩ => ⟨S128x256x1024, .f32⟩
  | .hbm, ⟨21, _⟩ => ⟨S128x256x1024, .f32⟩
  | .hbm, ⟨22, _⟩ => ⟨S_, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x256x1, .f32⟩
  | .hbm, ⟨28, _⟩ => ⟨S128x256x1024, .f32⟩
  | .hbm, ⟨29, _⟩ => ⟨S128x256x1024, .f32⟩
  | .hbm, ⟨30, _⟩ => ⟨S128x256x1024, .f32⟩
  | .hbm, ⟨31, _⟩ => ⟨S_, .f32⟩
  | .hbm, ⟨32, _⟩ => ⟨S128x256, .f32⟩
  | .hbm, ⟨33, _⟩ => ⟨S128x256x1, .f32⟩
  | .hbm, ⟨34, _⟩ => ⟨S128x256x1024, .f32⟩
  | .hbm, ⟨35, _⟩ => ⟨S128x256x1024, .f32⟩
  | .hbm, ⟨36, _⟩ => ⟨S128x128x256, .f32⟩
  | .hbm, ⟨37, _⟩ => ⟨S128x256x32x32, .f32⟩
  | _, _ => ⟨S128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S128x128x32x32_S128x128x1024 : S128x128x32x32.ShapeCasts S128x128x1024
  reducesTo_S128x1024x256_S128x1024_d2 : S128x1024x256.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x256_0_1_2 : S128x1024x1.BroadcastsInDim S128x1024x256 (![0, 1, 2] : Fin 3 → Fin S128x1024x256.rank)
  transposes_S128x1024x256_S128x256x1024_0_2_1 : S128x1024x256.Transposes [0, 2, 1] S128x256x1024
  bcast_S_S128x256x1024 : S_.BroadcastsInDim S128x256x1024 (![] : Fin 0 → Fin S128x256x1024.rank)
  reducesTo_S128x256x1024_S128x256_d2 : S128x256x1024.ReducesTo [2] S128x256
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x1024_0_1_2 : S128x256x1.BroadcastsInDim S128x256x1024 (![0, 1, 2] : Fin 3 → Fin S128x256x1024.rank)
  shapeCasts_S128x256x1024_S128x256x32x32 : S128x256x1024.ShapeCasts S128x256x32x32
  dot_S128x128x1024_S128x128x256_S128x1024x256_1_1_2_2_0_0_wf : DotDims.WF S128x128x1024 S128x128x256 S128x1024x256 [1] [1] [2] [2] [0] [0]
  dot_S128x128x1024_S128x256x1024_S128x128x256_2_2_1_1_0_0_wf : DotDims.WF S128x128x1024 S128x256x1024 S128x128x256 [2] [2] [1] [1] [0] [0]

variable [Facts₀]

def dot_S128x128x1024_S128x128x256_S128x1024x256_1_1_2_2_0_0 : DotDims S128x128x1024 S128x128x256 S128x1024x256 where
  lhsContracting := [1]
  rhsContracting := [1]
  lhsNonContracting := [2]
  rhsNonContracting := [2]
  lhsBatch := [0]
  rhsBatch := [0]
  wf := dot_S128x128x1024_S128x128x256_S128x1024x256_1_1_2_2_0_0_wf
def dot_S128x128x1024_S128x256x1024_S128x128x256_2_2_1_1_0_0 : DotDims S128x128x1024 S128x256x1024 S128x128x256 where
  lhsContracting := [2]
  rhsContracting := [2]
  lhsNonContracting := [1]
  rhsNonContracting := [1]
  lhsBatch := [0]
  rhsBatch := [0]
  wf := dot_S128x128x1024_S128x256x1024_S128x128x256_2_2_1_1_0_0_wf

class Facts : Prop extends Facts₀ where

variable [Facts]
-- ==== Proof.AttnSpec.lean ====
/-
  The mathematics both programs compute, for ONE batch element, over the extended reals.

  From a query slab `qf d q` (feature `d`, query position `q`) and a context slab `cf d l` (feature `d`,
  context position `l`):
    * the scores            s(q, l) = Σ_d qf d q · cf d l;
    * the first softmax, over the query positions `q` at each context position `l`, shifted by the maximum
      over `q`:            a(q, l) = exp (s(q, l) − max_q' s(q', l)) / Σ_q' exp (s(q', l) − max_q'' s(q'', l));
    * the temperature:      y(q, l) = a(q, l) · κ;
    * the second softmax, over the context positions `l` at each query position `q` — written WITHOUT a shift
      (`rowSoftmaxPlain`) by one program and WITH the shift by the row's maximum (`rowSoftmaxShift`) by the other;
    * the weighted context  w(d, q) = Σ_l cf d l · e(q, l).
  The index types are arbitrary finite types; the programs use them at `Fin 128`, `Fin 256`, `Fin 1024`.
-/
import Idealize.ShloMosaic.PureOps.Ideal

noncomputable section

namespace Cert.Attn

open Idealize.ShloMosaic

variable {D Q L : Type} [Fintype D] [Fintype Q] [Fintype L]

/-- The scores: the contraction of the two slabs over the feature axis. -/
def scores (qf : D → Q → EReal) (cf : D → L → EReal) (q : Q) (l : L) : EReal := ∑ d, qf d q * cf d l

/-- The maximum over the FIRST index, folded from `⊥`. -/
def colMax (s : Q → L → EReal) (l : L) : EReal := (Finset.univ : Finset Q).fold max ⊥ (fun q => s q l)

/-- The softmax over the first index, shifted by that maximum. -/
def colSoftmax (s : Q → L → EReal) (q : Q) (l : L) : EReal :=
  Ideal.div (Ideal.exp (s q l - colMax s l)) (∑ q', Ideal.exp (s q' l - colMax s l))

/-- The maximum over the SECOND index, folded from `⊥`. -/
def rowMax (y : Q → L → EReal) (q : Q) : EReal := (Finset.univ : Finset L).fold max ⊥ (fun l => y q l)

/-- The softmax over the second index as the quotient of the exponentials, no shift. -/
def rowSoftmaxPlain (y : Q → L → EReal) (q : Q) (l : L) : EReal :=
  Ideal.div (Ideal.exp (y q l)) (∑ l', Ideal.exp (y q l'))

/-- The softmax over the second index, shifted by the row's maximum. -/
def rowSoftmaxShift (y : Q → L → EReal) (q : Q) (l : L) : EReal :=
  Ideal.div (Ideal.exp (y q l - rowMax y q)) (∑ l', Ideal.exp (y q l' - rowMax y q))

/-- The first softmax of the scores, times the temperature `κ`. -/
def scaled (κ : EReal) (qf : D → Q → EReal) (cf : D → L → EReal) (q : Q) (l : L) : EReal :=
  colSoftmax (scores qf cf) q l * κ

/-- The attention map with the unshifted second softmax. -/
def attnPlain (κ : EReal) (qf : D → Q → EReal) (cf : D → L → EReal) : Q → L → EReal :=
  rowSoftmaxPlain (scaled κ qf cf)

/-- The attention map with the shifted second softmax. -/
def attnShift (κ : EReal) (qf : D → Q → EReal) (cf : D → L → EReal) : Q → L → EReal :=
  rowSoftmaxShift (scaled κ qf cf)

/-- The weighted context: the contraction of the context slab with an attention map over the context positions. -/
def weighted (cf : D → L → EReal) (e : Q → L → EReal) (d : D) (q : Q) : EReal := ∑ l, cf d l * e q l

end Cert.Attn

end
-- ==== Proof.AttnConsts.lean ====
/-
  The three float literals the two programs use, as extended reals: the temperature `4`, the reductions' starting
  values `−∞` (for a maximum) and `0` (for a sum).
-/
import Idealize.ShloMosaic.PureOps.Ideal
import Idealize.ShloMosaic.PureOps.Ideal.Laws

noncomputable section

namespace Cert.Attn

open Idealize.ShloMosaic

/-- The pattern `0x40800000` is the real number four. -/
theorem ofBits_four : Ideal.ofBits .f32 0x40800000#32 = ((4 : ℝ) : EReal) := by
  simp [Ideal.ofBits, Ideal.ieee, -EReal.coe_mul]; norm_num

/-- The pattern `0xFF800000` is `−∞`, the bottom of the extended reals. -/
theorem ofBits_neg_inf : Ideal.ofBits .f32 0xFF800000#32 = (⊥ : EReal) := by
  simp [Ideal.ofBits, Ideal.ieee]

/-- The pattern `0x00000000` is zero. -/
theorem ofBits_zero : Ideal.ofBits .f32 0x00000000#32 = (0 : EReal) := Ideal.ofBits_zero_f32

end Cert.Attn

end
-- ==== Proof.LibBatchOps.lean ====
/-
  Rank-3 arrays [n0, n1, n2] of extended reals read at an index (b, q, l): reductions over ONE of the two inner
  axes, and a reduced array kept as a unit axis and broadcast back.

  * A maximum taken from −∞ over the middle axis is, at (b, l), the fold of `max` from −∞ over the entries (b, q, l).
  * A sum over the middle axis is, at (b, l), the sum over `q` of the entries (b, q, l); a sum over the last axis is,
    at (b, q), the sum over `l`.
  * An array [n0, n2] viewed as [n0, 1, n2] and broadcast to [n0, n1, n2] reads, at (b, q, l), the entry (b, l);
    an array [n0, n1] viewed as [n0, n1, 1] and broadcast to [n0, n1, n2] reads, at (b, q, l), the entry (b, q).
-/
import Idealize.ShloMosaic.Lib.ValueIdx
import Idealize.ShloMosaic.Lib.Pipeline.Value
import Idealize.ShloMosaic.PureOps.Ideal.Laws

noncomputable section

namespace Cert.BatchOps

open Idealize.ShloMosaic Idealize.ShloMosaic.ValueIdx

/-- The maximum over the middle axis, from −∞: at (b, l) the fold of `max` over the entries (b, q, l). -/
theorem max_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0xFF800000#32 : BitVec 32) = 0xFF800000#32) (b : Fin n0) (l : Fin n2) :
    multiReduction .maximumf [1] ⟨2, ![n0, n2]⟩ src 0xFF800000#32 h hφ hacc (ix2 b l)
      = (Finset.univ : Finset (Fin n1)).fold max (Ideal.ofBits .f32 0xFF800000#32) (fun q => src (ix3 b q l)) :=
  (Ideal.multiReduction_maximumf_single src 0xFF800000#32 h hφ hacc (ix2 b l)).trans
    (Finset.fold_congr fun q _ => congrArg src (funext fun ax => Fin.ext (by
      match ax with
      | ⟨0, _⟩ => rfl
      | ⟨1, _⟩ => rfl
      | ⟨2, _⟩ => rfl)))

/-- The sum over the middle axis: at (b, l) the sum over `q` of the entries (b, q, l). -/
theorem sum_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (b : Fin n0) (l : Fin n2) :
    multiReduction .add [1] ⟨2, ![n0, n2]⟩ src 0x00000000#32 h hφ hacc (ix2 b l)
      = ∑ q : Fin n1, src (ix3 b q l) :=
  (Ideal.multiReduction_add_single src 0x00000000#32 h hφ hacc (ix2 b l)).trans
    (Finset.sum_congr rfl fun q _ => congrArg src (funext fun ax => Fin.ext (by
      match ax with
      | ⟨0, _⟩ => rfl
      | ⟨1, _⟩ => rfl
      | ⟨2, _⟩ => rfl)))

/-- The sum over the last axis: at (b, q) the sum over `l` of the entries (b, q, l). -/
theorem sum_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (b : Fin n0) (q : Fin n1) :
    multiReduction .add [2] ⟨2, ![n0, n1]⟩ src 0x00000000#32 h hφ hacc (ix2 b q)
      = ∑ l : Fin n2, src (ix3 b q l) :=
  (Ideal.multiReduction_add_single src 0x00000000#32 h hφ hacc (ix2 b q)).trans
    (Finset.sum_congr rfl fun l _ => congrArg src (funext fun ax => Fin.ext (by
      match ax with
      | ⟨0, _⟩ => rfl
      | ⟨1, _⟩ => rfl
      | ⟨2, _⟩ => rfl)))

variable {α : Type}

/-- [n0, n2] kept as [n0, 1, n2] and broadcast along the middle axis: at (b, q, l) the entry (b, l). -/
theorem keep_axis1_apply {n0 n1 n2 : ℕ} (v : (⟨2, ![n0, n2]⟩ : Shape).Idx → α)
    (h1 : (⟨2, ![n0, n2]⟩ : Shape).ShapeCasts ⟨3, ![n0, 1, n2]⟩)
    (h2 : (⟨3, ![n0, 1, n2]⟩ : Shape).Broadcasts ⟨3, ![n0, n1, n2]⟩) (b : Fin n0) (q : Fin n1) (l : Fin n2) :
    broadcastTo ⟨3, ![n0, n1, n2]⟩ (shapeCast ⟨3, ![n0, 1, n2]⟩ v h1) h2 (ix3 b q l) = v (ix2 b l) := by
  refine (broadcastTo_apply _ h2 (ix3 b q l) (ix3 b (0 : Fin 1) l) fun ax => ?_).trans ?_
  · match ax with
    | ⟨0, _⟩ =>
      show b.val = if n0 = 1 then 0 else b.val
      split
      · have := b.isLt; omega
      · rfl
    | ⟨1, _⟩ => rfl
    | ⟨2, _⟩ =>
      show l.val = if n2 = 1 then 0 else l.val
      split
      · have := l.isLt; omega
      · rfl
  · refine shapeCast_apply v h1 (ix3 b (0 : Fin 1) l) (ix2 b l) ?_
    rw [Shape.rowMajor_val_two, Shape.rowMajor_val_three]
    show b.val * n2 + l.val = (b.val * 1 + 0) * n2 + l.val
    rw [Nat.mul_one, Nat.add_zero]

/-- [n0, n1] kept as [n0, n1, 1] and broadcast along the last axis: at (b, q, l) the entry (b, q). -/
theorem keep_axis2_apply {n0 n1 n2 : ℕ} (v : (⟨2, ![n0, n1]⟩ : Shape).Idx → α)
    (h1 : (⟨2, ![n0, n1]⟩ : Shape).ShapeCasts ⟨3, ![n0, n1, 1]⟩)
    (h2 : (⟨3, ![n0, n1, 1]⟩ : Shape).Broadcasts ⟨3, ![n0, n1, n2]⟩) (b : Fin n0) (q : Fin n1) (l : Fin n2) :
    broadcastTo ⟨3, ![n0, n1, n2]⟩ (shapeCast ⟨3, ![n0, n1, 1]⟩ v h1) h2 (ix3 b q l) = v (ix2 b q) := by
  refine (broadcastTo_apply _ h2 (ix3 b q l) (ix3 b q (0 : Fin 1)) fun ax => ?_).trans ?_
  · match ax with
    | ⟨0, _⟩ =>
      show b.val = if n0 = 1 then 0 else b.val
      split
      · have := b.isLt; omega
      · rfl
    | ⟨1, _⟩ =>
      show q.val = if n1 = 1 then 0 else q.val
      split
      · have := q.isLt; omega
      · rfl
    | ⟨2, _⟩ => rfl
  · refine shapeCast_apply v h1 (ix3 b q (0 : Fin 1)) (ix2 b q) ?_
    rw [Shape.rowMajor_val_two, Shape.rowMajor_val_three]
    show b.val * n1 + q.val = (b.val * n1 + q.val) * 1 + 0
    omega

end Cert.BatchOps

end
-- ==== Proof.KernelBlock.lean ====
/-
  The body's arithmetic at one grid point, read at an index.

  The body loads a context block `X0` [2, 128, 1024] (batch-in-block, feature, context position) and a query block
  `X1` [2, 128, 256] (batch-in-block, feature, query position). For each of the two batch elements `bb` of the block
  it forms the scores (a contraction over the feature axis), a softmax over the query positions shifted by the
  column's maximum, the product with the temperature, and an unshifted softmax over the context positions: at
  (bb, q, l) the attention map `Cert.Attn.attnPlain` of the two slabs of batch element `bb`. The second stored value
  is the contraction of the context slab with that attention map over the context positions.
-/
import proofs.«174905_j14336600834794_2_alg».proof.Proof.Gen.KernelIdeal.Skeleton
import proofs.«174905_j14336600834794_2_alg».proof.Proof.AttnSpec
import proofs.«174905_j14336600834794_2_alg».proof.Proof.AttnConsts
import proofs.«174905_j14336600834794_2_alg».proof.Proof.LibBatchOps

noncomputable section

namespace Cert.KernelBlock

open Cert.KernelIdeal Cert.KernelIdeal.Gen Idealize.ShloMosaic Idealize.ShloMosaic.ValueIdx

variable [Cert.KernelIdeal.Facts]

/-! ## The two contractions at an index -/

abbrev dotScores := dot_S2x128x256_S2x128x1024_S2x256x1024_1_1_2_2_0_0
abbrev dotWeighted := dot_S2x128x1024_S2x256x1024_S2x128x256_2_2_1_1_0_0

theorem scores_lhs0 (i : S2x256x1024.Idx) (k : dotScores.contr.Idx) : (dotScores.lhsIdx i k 0).val = (i 0).val := by
  unfold DotDims.lhsIdx
  rw [dif_pos (show (0 : Fin S2x128x256.rank) ∈ dotScores.lhsBatch by decide)]
  rfl
theorem scores_lhs2 (i : S2x256x1024.Idx) (k : dotScores.contr.Idx) : (dotScores.lhsIdx i k 2).val = (i 1).val := by
  unfold DotDims.lhsIdx
  rw [dif_neg (show ¬(2 : Fin S2x128x256.rank) ∈ dotScores.lhsBatch by decide),
    dif_pos (show (2 : Fin S2x128x256.rank) ∈ dotScores.lhsNonContracting by decide)]
  rfl
theorem scores_rhs0 (i : S2x256x1024.Idx) (k : dotScores.contr.Idx) : (dotScores.rhsIdx i k 0).val = (i 0).val := by
  unfold DotDims.rhsIdx
  rw [dif_pos (show (0 : Fin S2x128x1024.rank) ∈ dotScores.rhsBatch by decide)]
  rfl
theorem scores_rhs2 (i : S2x256x1024.Idx) (k : dotScores.contr.Idx) : (dotScores.rhsIdx i k 2).val = (i 2).val := by
  unfold DotDims.rhsIdx
  rw [dif_neg (show ¬(2 : Fin S2x128x1024.rank) ∈ dotScores.rhsBatch by decide),
    dif_pos (show (2 : Fin S2x128x1024.rank) ∈ dotScores.rhsNonContracting by decide)]
  rfl

/-- The first contraction into the zero accumulator: at (bb, q, l) the sum over the feature `k` of the left
    operand at (bb, k, q) times the right operand at (bb, k, l). -/
theorem scores_matmul_apply (lhs : FVec Ideal S2x128x256 .bf16) (rhs : FVec Ideal S2x128x1024 .bf16)
    (bb : Fin 2) (q : Fin 256) (l : Fin 1024) :
    matmul dotScores none lhs rhs (constant S2x256x1024 .f32 0x00000000#32) (ix3 bb q l)
      = ∑ k : Fin 128, lhs (ix3 bb k q) * rhs (ix3 bb k l) := by
  simp only [matmul]
  rw [Ideal.matmul_constant_zero_apply, ← Equiv.sum_comp (contrEquiv1 dotScores 128 rfl rfl).symm]
  refine Finset.sum_congr rfl fun k _ => ?_
  have hk := contrEquiv1_symm_val dotScores 128 rfl rfl k
  have el : dotScores.lhsIdx (ix3 bb q l) ((contrEquiv1 dotScores 128 rfl rfl).symm k) = ix3 bb k q :=
    funext fun a => Fin.ext (by
      match a with
      | ⟨0, _⟩ => exact scores_lhs0 _ _
      | ⟨1, _⟩ => exact (dotScores.lhsIdx_val_of_single rfl _ _).trans hk
      | ⟨2, _⟩ => exact scores_lhs2 _ _)
  have er : dotScores.rhsIdx (ix3 bb q l) ((contrEquiv1 dotScores 128 rfl rfl).symm k) = ix3 bb k l :=
    funext fun a => Fin.ext (by
      match a with
      | ⟨0, _⟩ => exact scores_rhs0 _ _
      | ⟨1, _⟩ => exact (dotScores.rhsIdx_val_of_single rfl _ _).trans hk
      | ⟨2, _⟩ => exact scores_rhs2 _ _)
  rw [el, er]

theorem weighted_lhs0 (i : S2x128x256.Idx) (k : dotWeighted.contr.Idx) : (dotWeighted.lhsIdx i k 0).val = (i 0).val := by
  unfold DotDims.lhsIdx
  rw [dif_pos (show (0 : Fin S2x128x1024.rank) ∈ dotWeighted.lhsBatch by decide)]
  rfl
theorem weighted_lhs1 (i : S2x128x256.Idx) (k : dotWeighted.contr.Idx) : (dotWeighted.lhsIdx i k 1).val = (i 1).val := by
  unfold DotDims.lhsIdx
  rw [dif_neg (show ¬(1 : Fin S2x128x1024.rank) ∈ dotWeighted.lhsBatch by decide),
    dif_pos (show (1 : Fin S2x128x1024.rank) ∈ dotWeighted.lhsNonContracting by decide)]
  rfl
theorem weighted_rhs0 (i : S2x128x256.Idx) (k : dotWeighted.contr.Idx) : (dotWeighted.rhsIdx i k 0).val = (i 0).val := by
  unfold DotDims.rhsIdx
  rw [dif_pos (show (0 : Fin S2x256x1024.rank) ∈ dotWeighted.rhsBatch by decide)]
  rfl
theorem weighted_rhs1 (i : S2x128x256.Idx) (k : dotWeighted.contr.Idx) : (dotWeighted.rhsIdx i k 1).val = (i 2).val := by
  unfold DotDims.rhsIdx
  rw [dif_neg (show ¬(1 : Fin S2x256x1024.rank) ∈ dotWeighted.rhsBatch by decide),
    dif_pos (show (1 : Fin S2x256x1024.rank) ∈ dotWeighted.rhsNonContracting by decide)]
  rfl

/-- The second contraction into the zero accumulator: at (bb, d, q) the sum over the context position `k` of the
    left operand at (bb, d, k) times the right operand at (bb, q, k). -/
theorem weighted_matmul_apply (lhs : FVec Ideal S2x128x1024 .bf16) (rhs : FVec Ideal S2x256x1024 .bf16)
    (bb : Fin 2) (d : Fin 128) (q : Fin 256) :
    matmul dotWeighted none lhs rhs (constant S2x128x256 .f32 0x00000000#32) (ix3 bb d q)
      = ∑ k : Fin 1024, lhs (ix3 bb d k) * rhs (ix3 bb q k) := by
  simp only [matmul]
  rw [Ideal.matmul_constant_zero_apply, ← Equiv.sum_comp (contrEquiv1 dotWeighted 1024 rfl rfl).symm]
  refine Finset.sum_congr rfl fun k _ => ?_
  have hk := contrEquiv1_symm_val dotWeighted 1024 rfl rfl k
  have el : dotWeighted.lhsIdx (ix3 bb d q) ((contrEquiv1 dotWeighted 1024 rfl rfl).symm k) = ix3 bb d k :=
    funext fun a => Fin.ext (by
      match a with
      | ⟨0, _⟩ => exact weighted_lhs0 _ _
      | ⟨1, _⟩ => exact weighted_lhs1 _ _
      | ⟨2, _⟩ => exact (dotWeighted.lhsIdx_val_of_single rfl _ _).trans hk)
  have er : dotWeighted.rhsIdx (ix3 bb d q) ((contrEquiv1 dotWeighted 1024 rfl rfl).symm k) = ix3 bb q k :=
    funext fun a => Fin.ext (by
      match a with
      | ⟨0, _⟩ => exact weighted_rhs0 _ _
      | ⟨1, _⟩ => exact weighted_rhs1 _ _
      | ⟨2, _⟩ => exact (dotWeighted.rhsIdx_val_of_single rfl _ _).trans hk)
  rw [el, er]

/-! ## The body's stages as whole-block values -/

/-- The context block as the contractions read it: a change of float format is the identity on extended reals. -/
theorem pay1_apply (X0 : Vec Ideal S2x128x1024 .f32) (i : S2x128x1024.Idx) : k0_pay1 (F := Ideal) X0 i = X0 i := by
  unfold k0_pay1
  rw [shapeCast_self]
  rfl

/-- The scores of the block. -/
def scoresVec (X0 : Vec Ideal S2x128x1024 .f32) (X1 : Vec Ideal S2x128x256 .f32) : FVec Ideal S2x256x1024 .f32 :=
  matmul dotScores none (truncf .bf16 X1 bitsLt_bf16_f32) (k0_pay1 X0) (constant S2x256x1024 .f32 0x00000000#32)

/-- The maximum over the query positions, from −∞, broadcast back over them. -/
def colMaxVec (S : FVec Ideal S2x256x1024 .f32) : FVec Ideal S2x256x1024 .f32 :=
  broadcastTo S2x256x1024 (shapeCast S2x1x1024
    (multiReduction .maximumf [1] S2x1024 S 0xFF800000#32 reduces_S2x256x1024_S2x1024 (.inl rfl) rfl)
    shapeCasts_S2x1024_S2x1x1024) broadcasts_S2x1x1024_S2x256x1024

/-- The sum over the query positions, broadcast back over them. -/
def colSumVec (E : FVec Ideal S2x256x1024 .f32) : FVec Ideal S2x256x1024 .f32 :=
  broadcastTo S2x256x1024 (shapeCast S2x1x1024
    (multiReduction .add [1] S2x1024 E 0x00000000#32 reduces_S2x256x1024_S2x1024 (.inl rfl) rfl)
    shapeCasts_S2x1024_S2x1x1024) broadcasts_S2x1x1024_S2x256x1024

/-- The sum over the context positions, broadcast back over them. -/
def rowSumVec (E : FVec Ideal S2x256x1024 .f32) : FVec Ideal S2x256x1024 .f32 :=
  broadcastTo S2x256x1024 (shapeCast S2x256x1
    (multiReduction .add [2] S2x256 E 0x00000000#32 reduces_S2x256x1024_S2x256 (.inl rfl) rfl)
    shapeCasts_S2x256_S2x256x1) broadcasts_S2x256x1_S2x256x1024

/-- The softmax over the query positions, shifted by the maximum. -/
def colSoftmaxVec (S : FVec Ideal S2x256x1024 .f32) : FVec Ideal S2x256x1024 .f32 :=
  divf (exp (subf S (colMaxVec S))) (colSumVec (exp (subf S (colMaxVec S))))

/-- The product with the temperature. -/
def scaledVec (A : FVec Ideal S2x256x1024 .f32) : FVec Ideal S2x256x1024 .f32 :=
  mulf A (broadcast S2x256x1024 (Scalar.ofBits .f32 0x40800000#32))

/-- The softmax over the context positions, no shift. -/
def rowSoftmaxVec (Y : FVec Ideal S2x256x1024 .f32) : FVec Ideal S2x256x1024 .f32 :=
  divf (exp Y) (rowSumVec (exp Y))

/-- The attention payload is these stages composed. -/
theorem pay2_eq (X0 : Vec Ideal S2x128x1024 .f32) (X1 : Vec Ideal S2x128x256 .f32) :
    k0_pay2 (F := Ideal) X0 X1 = rowSoftmaxVec (scaledVec (colSoftmaxVec (scoresVec X0 X1))) := rfl

/-! ## The stages at an index -/

theorem scoresVec_apply (X0 : Vec Ideal S2x128x1024 .f32) (X1 : Vec Ideal S2x128x256 .f32)
    (bb : Fin 2) (q : Fin 256) (l : Fin 1024) :
    scoresVec X0 X1 (ix3 bb q l)
      = Cert.Attn.scores (fun (d : Fin 128) (q' : Fin 256) => X1 (ix3 bb d q'))
          (fun (d : Fin 128) (l' : Fin 1024) => X0 (ix3 bb d l')) q l := by
  unfold scoresVec Cert.Attn.scores
  refine (scores_matmul_apply _ _ bb q l).trans ?_
  refine Finset.sum_congr rfl fun k _ => ?_
  rw [pay1_apply]
  rfl

theorem colMaxVec_apply (S : FVec Ideal S2x256x1024 .f32) (bb : Fin 2) (q : Fin 256) (l : Fin 1024) :
    colMaxVec S (ix3 bb q l) = Cert.Attn.colMax (fun (q' : Fin 256) (l' : Fin 1024) => S (ix3 bb q' l')) l := by
  unfold colMaxVec Cert.Attn.colMax
  refine (Cert.BatchOps.keep_axis1_apply _ _ _ bb q l).trans ?_
  refine (Cert.BatchOps.max_axis1_apply S _ _ _ bb l).trans ?_
  rw [Cert.Attn.ofBits_neg_inf]

theorem colSumVec_apply (E : FVec Ideal S2x256x1024 .f32) (bb : Fin 2) (q : Fin 256) (l : Fin 1024) :
    colSumVec E (ix3 bb q l) = ∑ q' : Fin 256, E (ix3 bb q' l) := by
  unfold colSumVec
  refine (Cert.BatchOps.keep_axis1_apply _ _ _ bb q l).trans ?_
  exact Cert.BatchOps.sum_axis1_apply E _ _ _ bb l

theorem rowSumVec_apply (E : FVec Ideal S2x256x1024 .f32) (bb : Fin 2) (q : Fin 256) (l : Fin 1024) :
    rowSumVec E (ix3 bb q l) = ∑ l' : Fin 1024, E (ix3 bb q l') := by
  unfold rowSumVec
  refine (Cert.BatchOps.keep_axis2_apply _ _ _ bb q l).trans ?_
  exact Cert.BatchOps.sum_axis2_apply E _ _ _ bb q

theorem colSoftmaxVec_apply (S : FVec Ideal S2x256x1024 .f32) (bb : Fin 2) (q : Fin 256) (l : Fin 1024) :
    colSoftmaxVec S (ix3 bb q l)
      = Cert.Attn.colSoftmax (fun (q' : Fin 256) (l' : Fin 1024) => S (ix3 bb q' l')) q l := by
  unfold colSoftmaxVec Cert.Attn.colSoftmax
  show Ideal.div (Ideal.exp (S (ix3 bb q l) - colMaxVec S (ix3 bb q l)))
      (colSumVec (exp (subf S (colMaxVec S))) (ix3 bb q l)) = _
  rw [colSumVec_apply, colMaxVec_apply]
  refine congrArg (Ideal.div _) (Finset.sum_congr rfl fun q' _ => ?_)
  show Ideal.exp (S (ix3 bb q' l) - colMaxVec S (ix3 bb q' l)) = _
  rw [colMaxVec_apply]

theorem scaledVec_apply (A : FVec Ideal S2x256x1024 .f32) (i : S2x256x1024.Idx) :
    scaledVec A i = A i * Ideal.ofBits .f32 0x40800000#32 := rfl

theorem rowSoftmaxVec_apply (Y : FVec Ideal S2x256x1024 .f32) (bb : Fin 2) (q : Fin 256) (l : Fin 1024) :
    rowSoftmaxVec Y (ix3 bb q l)
      = Cert.Attn.rowSoftmaxPlain (fun (q' : Fin 256) (l' : Fin 1024) => Y (ix3 bb q' l')) q l := by
  unfold rowSoftmaxVec Cert.Attn.rowSoftmaxPlain
  show Ideal.div (Ideal.exp (Y (ix3 bb q l))) (rowSumVec (exp Y) (ix3 bb q l)) = _
  rw [rowSumVec_apply]
  rfl

/-! ## The two stored values at an index -/

/-- The attention payload at (bb, q, l): the attention map of batch element `bb`'s two slabs. -/
theorem pay2_apply (X0 : Vec Ideal S2x128x1024 .f32) (X1 : Vec Ideal S2x128x256 .f32)
    (bb : Fin 2) (q : Fin 256) (l : Fin 1024) :
    k0_pay2 (F := Ideal) X0 X1 (ix3 bb q l)
      = Cert.Attn.attnPlain (Ideal.ofBits .f32 0x40800000#32)
          (fun (d : Fin 128) (q' : Fin 256) => X1 (ix3 bb d q'))
          (fun (d : Fin 128) (l' : Fin 1024) => X0 (ix3 bb d l')) q l := by
  rw [pay2_eq, rowSoftmaxVec_apply]
  unfold Cert.Attn.attnPlain
  refine congrArg (fun y => Cert.Attn.rowSoftmaxPlain y q l) (funext fun q' => funext fun l' => ?_)
  unfold Cert.Attn.scaled
  rw [scaledVec_apply, colSoftmaxVec_apply]
  refine congrArg (· * _) (congrArg (fun s => Cert.Attn.colSoftmax s q' l')
    (funext fun q'' => funext fun l'' => scoresVec_apply X0 X1 bb q'' l''))

/-- The weighted-context payload at (bb, d, q): the contraction of batch element `bb`'s context slab with its
    attention map over the context positions. -/
theorem pay3_apply (X0 : Vec Ideal S2x128x1024 .f32) (X1 : Vec Ideal S2x128x256 .f32)
    (bb : Fin 2) (d : Fin 128) (q : Fin 256) :
    k0_pay3 (F := Ideal) X0 X1 (ix3 bb d q)
      = Cert.Attn.weighted (fun (d' : Fin 128) (l' : Fin 1024) => X0 (ix3 bb d' l'))
          (fun (q' : Fin 256) (l' : Fin 1024) => k0_pay2 (F := Ideal) X0 X1 (ix3 bb q' l')) d q := by
  unfold k0_pay3 Cert.Attn.weighted
  refine (weighted_matmul_apply _ _ bb d q).trans ?_
  refine Finset.sum_congr rfl fun k _ => ?_
  rw [pay1_apply]
  rfl

end Cert.KernelBlock

end
-- ==== Proof.AttnArrays.lean ====
/-
  The two results as whole arrays, over extended reals.

  From a query array `Qa` [128, 128, 256] (batch, feature, query position) and a flattened context array `C`
  [128, 128, 1024] (batch, feature, context position): the attention array [128, 256, 1024] is, at (b, q, l), the
  attention map (`Cert.Attn.attnPlain`, at the temperature 4) of batch element `b`'s two slabs; the weighted-context
  array [128, 128, 256] is, at (b, d, q), the contraction of batch element `b`'s context slab with its attention map
  over the context positions.
-/
import proofs.«174905_j14336600834794_2_alg».proof.Proof.AttnSpec
import Idealize.ShloMosaic.Lib.ValueIdx

noncomputable section

namespace Cert.AttnArrays

open Idealize.ShloMosaic Idealize.ShloMosaic.ValueIdx

/-- The temperature, as the programs spell it: the pattern of the float 4. -/
abbrev κ : EReal := Ideal.ofBits .f32 0x40800000#32

/-- The attention map of batch element `b` at (q, l). -/
def attnAt (Qa : (⟨3, ![128, 128, 256]⟩ : Shape).Idx → EReal) (C : (⟨3, ![128, 128, 1024]⟩ : Shape).Idx → EReal)
    (b : Fin 128) (q : Fin 256) (l : Fin 1024) : EReal :=
  Cert.Attn.attnPlain κ (fun (d : Fin 128) (q' : Fin 256) => Qa (ix3 b d q'))
    (fun (d : Fin 128) (l' : Fin 1024) => C (ix3 b d l')) q l

/-- The attention array. -/
def attnArr (Qa : (⟨3, ![128, 128, 256]⟩ : Shape).Idx → EReal) (C : (⟨3, ![128, 128, 1024]⟩ : Shape).Idx → EReal) :
    (⟨3, ![128, 256, 1024]⟩ : Shape).Idx → EReal :=
  fun i => attnAt Qa C (i 0) (i 1) (i 2)

/-- The weighted context of batch element `b` at (d, q). -/
def weightedAt (Qa : (⟨3, ![128, 128, 256]⟩ : Shape).Idx → EReal) (C : (⟨3, ![128, 128, 1024]⟩ : Shape).Idx → EReal)
    (b : Fin 128) (d : Fin 128) (q : Fin 256) : EReal :=
  Cert.Attn.weighted (fun (d' : Fin 128) (l' : Fin 1024) => C (ix3 b d' l'))
    (fun (q' : Fin 256) (l' : Fin 1024) => attnAt Qa C b q' l') d q

/-- The weighted-context array. -/
def weightedArr (Qa : (⟨3, ![128, 128, 256]⟩ : Shape).Idx → EReal) (C : (⟨3, ![128, 128, 1024]⟩ : Shape).Idx → EReal) :
    (⟨3, ![128, 128, 256]⟩ : Shape).Idx → EReal :=
  fun i => weightedAt Qa C (i 0) (i 1) (i 2)

theorem attnArr_ix3 (Qa : (⟨3, ![128, 128, 256]⟩ : Shape).Idx → EReal) (C : (⟨3, ![128, 128, 1024]⟩ : Shape).Idx → EReal)
    (b : Fin 128) (q : Fin 256) (l : Fin 1024) : attnArr Qa C (ix3 b q l) = attnAt Qa C b q l := rfl

theorem weightedArr_ix3 (Qa : (⟨3, ![128, 128, 256]⟩ : Shape).Idx → EReal) (C : (⟨3, ![128, 128, 1024]⟩ : Shape).Idx → EReal)
    (b : Fin 128) (d : Fin 128) (q : Fin 256) : weightedArr Qa C (ix3 b d q) = weightedAt Qa C b d q := rfl

end Cert.AttnArrays

end
-- ==== Proof.KernelArrays.lean ====
/-
  From blocks to arrays, on the kernel's side.

  The grid has 64 points; point `t` works on the two batch elements 2t and 2t+1: every window's block index at `t`
  is (t, 0, 0), so element (bb, x, y) of a block is element (2t + bb, x, y) of its array, and the blocks of an
  output tile its array: batch element `b` is written at point b / 2. Hence the attention array after the run is, at
  (b, q, l), the attention map of batch element `b`'s slabs of the query array and of the flattened context array,
  and the weighted-context array is, at (b, d, q), the contraction of that batch element's context slab with its
  attention map. The flattened context array is the context argument re-laid in row-major order, and the second
  result is the attention array re-laid as [128, 256, 32, 32].
-/
import proofs.«174905_j14336600834794_2_alg».proof.Proof.Gen.KernelIdeal.Frame
import proofs.«174905_j14336600834794_2_alg».proof.Proof.KernelBlock
import proofs.«174905_j14336600834794_2_alg».proof.Proof.AttnArrays
import Idealize.ShloMosaic.Lib.Pipeline.Value
import Idealize.ShloMosaic.Lib.StableHlo.Run

set_option maxRecDepth 16384

noncomputable section

namespace Cert.KernelArrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.AttnArrays

variable (m : (ℓ : Loc nD τ sig) → Buf (Elt Ideal) ℓ) (ρ : Dev nD → PrngReg)

/-! ## The index maps, decided over the 64 points -/

theorem hz3 : (![0, 0, 0] : Fin 3 → Nat) = fun _ => 0 := funext fun a => by fin_cases a <;> rfl

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## A block's element is its array's element of batch 2t + bb -/

theorem ctx_block (c : Dev nD) (t : Fin cfg0.N) (bb : Fin 2) (d : Fin 128) (l : Fin 1024) (B : Fin 128)
    (hB : B.val = t.val * 2 + bb.val) : iblk m c 0 t (ix3 bb d l) = V m c main_v0 (ix3 B d l) := by
  show V m c main_v0 (((cfg0.win 0).blk t).view.emb (ix3 bb d l)) = _
  refine congrArg (V m c main_v0) (funext fun a => Fin.ext ?_)
  obtain ⟨e0, e1, e2, -⟩ := idx_facts t
  match a with
  | ⟨0, _⟩ => show win0_0.index t (0 : Fin 3) * 2 + 1 * bb.val = B.val; omega
  | ⟨1, _⟩ => show win0_0.index t (1 : Fin 3) * 128 + 1 * d.val = d.val; omega
  | ⟨2, _⟩ => show win0_0.index t (2 : Fin 3) * 1024 + 1 * l.val = l.val; omega

theorem qry_block (c : Dev nD) (t : Fin cfg0.N) (bb : Fin 2) (d : Fin 128) (q : Fin 256) (B : Fin 128)
    (hB : B.val = t.val * 2 + bb.val) : iblk m c 1 t (ix3 bb d q) = V m c main_arg0 (ix3 B d q) := by
  show V m c main_arg0 (((cfg0.win 1).blk t).view.emb (ix3 bb d q)) = _
  refine congrArg (V m c main_arg0) (funext fun a => Fin.ext ?_)
  obtain ⟨-, -, -, e0, e1, e2, -⟩ := idx_facts t
  match a with
  | ⟨0, _⟩ => show win0_1.index t (0 : Fin 3) * 2 + 1 * bb.val = B.val; omega
  | ⟨1, _⟩ => show win0_1.index t (1 : Fin 3) * 128 + 1 * d.val = d.val; omega
  | ⟨2, _⟩ => show win0_1.index t (2 : Fin 3) * 256 + 1 * q.val = q.val; omega

/-- The attention payload of point `t` at (bb, q, l) is the attention map of batch element 2t + bb. -/
theorem attn_point (c : Dev nD) (t : Fin cfg0.N) (bb : Fin 2) (q : Fin 256) (l : Fin 1024) (B : Fin 128)
    (hB : B.val = t.val * 2 + bb.val) :
    k0_pay2 (F := Ideal) (iblk m c 0 t) (iblk m c 1 t) (ix3 bb q l) = attnAt (V m c main_arg0) (V m c main_v0) B q l := by
  refine (Cert.KernelBlock.pay2_apply (iblk m c 0 t) (iblk m c 1 t) bb q l).trans ?_
  unfold attnAt
  refine congrArg₂ (fun qf cf => Cert.Attn.attnPlain κ qf cf q l) ?_ ?_
  · exact funext fun d => funext fun q' => qry_block m c t bb d q' B hB
  · exact funext fun d => funext fun l' => ctx_block m c t bb d l' B hB

/-- The weighted-context payload of point `t` at (bb, d, q) is the weighted context of batch element 2t + bb. -/
theorem weighted_point (c : Dev nD) (t : Fin cfg0.N) (bb : Fin 2) (d : Fin 128) (q : Fin 256) (B : Fin 128)
    (hB : B.val = t.val * 2 + bb.val) :
    k0_pay3 (F := Ideal) (iblk m c 0 t) (iblk m c 1 t) (ix3 bb d q) = weightedAt (V m c main_arg0) (V m c main_v0) B d q := by
  refine (Cert.KernelBlock.pay3_apply (iblk m c 0 t) (iblk m c 1 t) bb d q).trans ?_
  unfold weightedAt
  refine congrArg₂ (fun cf e => Cert.Attn.weighted cf e d q) ?_ ?_
  · exact funext fun d' => funext fun l' => ctx_block m c t bb d' l' B hB
  · exact funext fun q' => funext fun l' => attn_point m c t bb q' l' B hB

/-! ## What a point writes back -/

theorem flushed3_eq (c : Dev nD) (t : Fin cfg0.N) :
    (dats m 0 c).flushed 3 t
      = ((cfg0.win 3).blk t).view.read (Elt Ideal) (attnArr (V m c main_arg0) (V m c main_v0)) := by
  show (cfg0.win 3).cut (grid0.coords t) ((dats m 0 c).after 3 t) = _
  rw [after0_3]
  unfold out0_3
  rw [View.canon_unit_zero hz3]
  simp only [View.ld_unit_zero (S := S2x128x1024) hz3, View.ld_unit_zero (S := S2x128x256) hz3]
  refine funext fun (j : S2x256x1024.Idx) => ?_
  obtain ⟨bb, q, l, rfl⟩ : ∃ (bb : Fin 2) (q : Fin 256) (l : Fin 1024), j = ix3 bb q l := ⟨j 0, j 1, j 2, eq_ix3 j⟩
  obtain ⟨-, -, -, -, -, -, -, -, -, e0, e1, e2⟩ := idx_facts t
  have hN : cfg0.N = 64 := N_0
  have ht : t.val < 64 := hN ▸ t.isLt
  have hemb : ((cfg0.win 3).blk t).view.emb (ix3 bb q l) = ix3 (⟨t.val * 2 + bb.val, by omega⟩ : Fin 128) q l :=
    funext fun a => Fin.ext (by
      match a with
      | ⟨0, _⟩ => show win0_3.index t (0 : Fin 3) * 2 + 1 * bb.val = t.val * 2 + bb.val; omega
      | ⟨1, _⟩ => show win0_3.index t (1 : Fin 3) * 256 + 1 * q.val = q.val; omega
      | ⟨2, _⟩ => show win0_3.index t (2 : Fin 3) * 1024 + 1 * l.val = l.val; omega)
  show k0_pay2 (F := Ideal) (iblk m c 0 t) (iblk m c 1 t) (ix3 bb q l)
    = attnArr (V m c main_arg0) (V m c main_v0) (((cfg0.win 3).blk t).view.emb (ix3 bb q l))
  rw [hemb]
  exact attn_point m c t bb q l _ rfl

theorem flushed2_eq (c : Dev nD) (t : Fin cfg0.N) :
    (dats m 0 c).flushed 2 t
      = ((cfg0.win 2).blk t).view.read (Elt Ideal) (weightedArr (V m c main_arg0) (V m c main_v0)) := by
  show (cfg0.win 2).cut (grid0.coords t) ((dats m 0 c).after 2 t) = _
  rw [after0_2]
  unfold out0_2
  rw [View.canon_unit_zero hz3]
  simp only [View.ld_unit_zero (S := S2x128x1024) hz3, View.ld_unit_zero (S := S2x128x256) hz3]
  refine funext fun (j : S2x128x256.Idx) => ?_
  obtain ⟨bb, d, q, rfl⟩ : ∃ (bb : Fin 2) (d : Fin 128) (q : Fin 256), j = ix3 bb d q := ⟨j 0, j 1, j 2, eq_ix3 j⟩
  obtain ⟨-, -, -, -, -, -, e0, e1, e2, -⟩ := idx_facts t
  have hN : cfg0.N = 64 := N_0
  have ht : t.val < 64 := hN ▸ t.isLt
  have hemb : ((cfg0.win 2).blk t).view.emb (ix3 bb d q) = ix3 (⟨t.val * 2 + bb.val, by omega⟩ : Fin 128) d q :=
    funext fun a => Fin.ext (by
      match a with
      | ⟨0, _⟩ => show win0_2.index t (0 : Fin 3) * 2 + 1 * bb.val = t.val * 2 + bb.val; omega
      | ⟨1, _⟩ => show win0_2.index t (1 : Fin 3) * 128 + 1 * d.val = d.val; omega
      | ⟨2, _⟩ => show win0_2.index t (2 : Fin 3) * 256 + 1 * q.val = q.val; omega)
  show k0_pay3 (F := Ideal) (iblk m c 0 t) (iblk m c 1 t) (ix3 bb d q)
    = weightedArr (V m c main_arg0) (V m c main_v0) (((cfg0.win 2).blk t).view.emb (ix3 bb d q))
  rw [hemb]
  exact weighted_point m c t bb d q _ rfl

/-! ## The blocks tile the arrays -/

theorem mem_blk3 (t : Fin cfg0.N) (i : S128x256x1024.Idx) :
    i ∈ ((cfg0.win 3).blk t).view.set ↔ ∀ a : Fin 3, win0_3.index t a * S2x256x1024.size a ≤ (i a).val
      ∧ (i a).val < win0_3.index t a * S2x256x1024.size a + S2x256x1024.size a := by
  show i ∈ ((View.whole main_v1_1).slice (win0_3.rect t)).set ↔ _
  rw [View.set_slice_whole, Rect.mem_set_unit]
  exact Iff.rfl

theorem mem_blk2 (t : Fin cfg0.N) (i : S128x128x256.Idx) :
    i ∈ ((cfg0.win 2).blk t).view.set ↔ ∀ a : Fin 3, win0_2.index t a * S2x128x256.size a ≤ (i a).val
      ∧ (i a).val < win0_2.index t a * S2x128x256.size a + S2x128x256.size a := by
  show i ∈ ((View.whole main_v1_0).slice (win0_2.rect t)).set ↔ _
  rw [View.set_slice_whole, Rect.mem_set_unit]
  exact Iff.rfl

theorem cover3 (i : S128x256x1024.Idx) :
    ∃ t : Fin cfg0.N, (cfg0.win 3).flush t = true ∧ i ∈ ((cfg0.win 3).blk t).view.set := by
  have h0 : (i 0).val < 128 := (i 0).isLt
  have h1 : (i 1).val < 256 := (i 1).isLt
  have h2 : (i 2).val < 1024 := (i 2).isLt
  have hN : cfg0.N = 64 := N_0
  let t : Fin cfg0.N := ⟨(i 0).val / 2, by rw [hN]; omega⟩
  have htv : t.val = (i 0).val / 2 := rfl
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

theorem cover2 (i : S128x128x256.Idx) :
    ∃ t : Fin cfg0.N, (cfg0.win 2).flush t = true ∧ i ∈ ((cfg0.win 2).blk t).view.set := by
  have h0 : (i 0).val < 128 := (i 0).isLt
  have h1 : (i 1).val < 128 := (i 1).isLt
  have h2 : (i 2).val < 256 := (i 2).isLt
  have hN : cfg0.N = 64 := N_0
  let t : Fin cfg0.N := ⟨(i 0).val / 2, by rw [hN]; omega⟩
  have htv : t.val = (i 0).val / 2 := rfl
  obtain ⟨-, -, -, -, -, -, e0, e1, e2, -⟩ := idx_facts t
  refine ⟨t, flush0_2 t, ?_⟩
  rw [mem_blk2]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-! ## The arrays after the run -/

theorem final3 (c : Dev nD) : (dats m 0 c).arrAt 3 cfg0.N = attnArr (V m c main_arg0) (V m c main_v0) :=
  (dats m 0 c).arrAt_eq_of_cover 3 (attnArr (V m c main_arg0) (V m c main_v0)) (fun t _ => flushed3_eq m c t) cover3

theorem final2 (c : Dev nD) : (dats m 0 c).arrAt 2 cfg0.N = weightedArr (V m c main_arg0) (V m c main_v0) :=
  (dats m 0 c).arrAt_eq_of_cover 2 (weightedArr (V m c main_arg0) (V m c main_v0)) (fun t _ => flushed2_eq m c t) cover2

/-- The flattened context array the region finds: the context argument re-laid in row-major order. -/
theorem V_main_v0 (c : Dev nD) :
    (V m c main_v0 : S128x128x1024.Idx → EReal)
      = shapeCast S128x128x1024 (m ((c : Thread nD τ).loc main_arg1)) shapeCasts_S128x128x32x32_S128x128x1024 := by
  show StableHlo.after hostOps0 (fun b => m (c, b)) (Proc.devRef .tc main_v0) = _
  after_results
  rfl

/-- The second result: the attention array re-laid as [128, 256, 32, 32]. -/
theorem tail_main_v2 (c : Dev nD) :
    Pipeline.afterTail₀ cfgs (dats m) 0 (V0 m) [hostOps1] c main_v2
      = shapeCast S128x256x32x32 (attnArr (V m c main_arg0) (V m c main_v0)) shapeCasts_S128x256x1024_S128x256x32x32 := by
  unfold Pipeline.afterTail₀
  show StableHlo.after hostOps1 _ (Proc.devRef .tc main_v2) = _
  after_results
  rw [(Pipeline.withArrays_arr spec0 launch0.win.arr_inj c _ _ 3).trans (final3 m c)]
  rfl

/-- The kernel's run, read: both results as functions of the query argument and the flattened context. -/
theorem run : θ_run defs (onTc (τ := τ) (main (F := Ideal))) ⟨m, fun _ => 0, ρ⟩ fun r => ∀ c : Dev nD,
      r.2.mem ((c : Thread nD τ).loc main_v1_0) = weightedArr (V m c main_arg0) (V m c main_v0)
      ∧ r.2.mem ((c : Thread nD τ).loc main_v2)
          = shapeCast S128x256x32x32 (attnArr (V m c main_arg0) (V m c main_v0)) shapeCasts_S128x256x1024_S128x256x32x32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans (final2 m c),
       ((h c).2 main_v2 (Pipeline.mem_restRefs_of main_v2 (by decide) (by decide))).trans (tail_main_v2 m c),
       ((h c).1 1).trans (((dats m 0 c).arrAt_in 1 rfl _).trans ((A_eq m c 1).trans (V_main_arg0 m c))),
       ((h c).2 main_arg1 (Pipeline.mem_restRefs_of main_arg1 (by decide) (by decide))).trans (W_main_arg1 m (dats m) c)⟩)
    (run_main m ρ)

/-- The query argument on core `c`. -/
abbrev qryArg (c : Dev nD) : S128x128x256.Idx → EReal := m ((c : Thread nD τ).loc main_arg0)

/-- The context argument on core `c`, flattened in row-major order. -/
abbrev ctxFlat (c : Dev nD) : S128x128x1024.Idx → EReal :=
  shapeCast S128x128x1024 (m ((c : Thread nD τ).loc main_arg1)) shapeCasts_S128x128x32x32_S128x128x1024

/-- The same run with both results as functions of the two ARGUMENTS: the region finds the query argument as
    launched, and the flattened context as the context argument re-laid. -/
theorem run_args : θ_run defs (onTc (τ := τ) (main (F := Ideal))) ⟨m, fun _ => 0, ρ⟩ fun r => ∀ c : Dev nD,
      r.2.mem ((c : Thread nD τ).loc main_v1_0) = weightedArr (qryArg m c) (ctxFlat m c)
      ∧ r.2.mem ((c : Thread nD τ).loc main_v2)
          = shapeCast S128x256x32x32 (attnArr (qryArg m c) (ctxFlat m c)) shapeCasts_S128x256x1024_S128x256x32x32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨by rw [(h c).1, V_main_arg0, V_main_v0], by rw [(h c).2.1, V_main_arg0, V_main_v0], (h c).2.2.1, (h c).2.2.2⟩)
    (run m ρ)

end Cert.KernelArrays

end
-- ==== Proof.RefStages.lean ====
/-
  The reference program, stage by stage, for ONE batch element `b`, over the extended reals.

  With the query slab `qf d q = x0 (b, d, q)` and the context slab `cf d l` (the context array of batch `b`,
  its two spatial axes flattened into one context position `l`), the program's values are the functions of the
  specification:
    * the scores, in the layout (b, l, q):            Σ_d cf d l · qf d q = `scores qf cf q l`;
    * their maximum over `q`, a fold of `max` from −∞ (taken once more against −∞, which changes nothing):
                                                      `colMax (scores qf cf) l`;
    * the first softmax, shifted by that maximum, its sum started from 0:   `colSoftmax (scores qf cf) q l`;
    * transposed to the layout (b, q, l) and multiplied by the temperature: `scaled κ qf cf q l`;
    * its maximum over `l`:                          `rowMax (scaled κ qf cf) q`;
    * the second softmax, shifted by that maximum:    `attnShift κ qf cf q l`   (the attention map);
    * the contraction of the context slab with the attention map over `l`: `weighted cf attn d q`.
  Each stage is read at an index built from literal coordinates; a layout operation's operand index is computed
  coordinate by coordinate.
-/
import proofs.«174905_j14336600834794_2_alg».proof.Proof.Gen.ReferenceIdeal.Read
import proofs.«174905_j14336600834794_2_alg».proof.Proof.AttnSpec
import proofs.«174905_j14336600834794_2_alg».proof.Proof.AttnConsts
import Idealize.ShloMosaic.Lib.ValueIdx
import Idealize.ShloMosaic.PureOps.Ideal.Laws

noncomputable section

namespace Cert.RefStages

open Cert.ReferenceIdeal Cert.ReferenceIdeal.Read Idealize.ShloMosaic Idealize.ShloMosaic.ValueIdx

/-- The query slab of batch element `b`: feature `d`, query position `q`. -/
abbrev qf (x0 : (⟨S128x128x256, .f32⟩ : BufTy).Contents (Elt Ideal)) (b : Fin 128) : Fin 128 → Fin 256 → EReal :=
  fun d q => x0 (ix3 b d q)

/-- The context slab of batch element `b`, the two spatial axes flattened: feature `d`, context position `l`. -/
abbrev cf (x1 : (⟨S128x128x32x32, .f32⟩ : BufTy).Contents (Elt Ideal)) (b : Fin 128) : Fin 128 → Fin 1024 → EReal :=
  fun d l => val_main_v0 (F := Ideal) x1 (ix3 b d l)

/-- A reduced index with the coordinate of the dropped last axis put back. -/
private theorem lift3 {n0 n1 n2 : Nat} (h : (⟨3, ![n0, n1, n2]⟩ : Shape).Reduces [2] (⟨2, ![n0, n1]⟩ : Shape)) (a : Fin n0) (c : Fin n1)
    (k : Fin ((⟨3, ![n0, n1, n2]⟩ : Shape).size 2)) : h.lift (ix2 a c) k = ix3 a c (⟨k.val, k.isLt⟩ : Fin n2) := by
  funext e; apply Fin.ext
  fin_cases e <;> rfl

/-- From −∞, a maximum-reduction over the last of three axes is the fold of `max` from `⊥` over that axis. -/
private theorem reduceMax3 {n0 n1 n2 : Nat} (x : FVec Ideal ⟨3, ![n0, n1, n2]⟩ .f32)
    (h' : (⟨3, ![n0, n1, n2]⟩ : Shape).ReducesTo [2] (⟨2, ![n0, n1]⟩ : Shape))
    (h : (⟨3, ![n0, n1, n2]⟩ : Shape).Reduces [2] (⟨2, ![n0, n1]⟩ : Shape)) (hu : 0 < (⟨0, ![]⟩ : Shape).numel) (a : Fin n0) (c : Fin n1) :
    Host.reduce FloatOps.maximumf x (constant (⟨0, ![]⟩ : Shape) .f32 0xFF800000#32) h' hu (ix2 a c)
      = (Finset.univ : Finset (Fin n2)).fold max (⊥ : EReal) (fun k => x (ix3 a c k)) := by
  rw [Host.reduce_eq_fold_single FloatOps.maximumf x _ h' h hu]
  have hf : (x ∘ h.lift (ix2 a c)) = fun k : Fin n2 => x (ix3 a c k) := funext fun k => congrArg x (lift3 h a c k)
  have h0 : constant (F := Ideal) (⟨0, ![]⟩ : Shape) .f32 0xFF800000#32 (Shape.Idx.first hu) = (⊥ : EReal) := Cert.Attn.ofBits_neg_inf
  rw [h0]
  exact congrArg (fun f => Finset.fold max (⊥ : EReal) f (Finset.univ : Finset (Fin n2))) hf

section Stages

variable (x0 : (⟨S128x128x256, .f32⟩ : BufTy).Contents (Elt Ideal)) (x1 : (⟨S128x128x32x32, .f32⟩ : BufTy).Contents (Elt Ideal))

/-- The scores, in the layout (batch, context position, query position). -/
theorem v1_ix (b : Fin 128) (l : Fin 1024) (q : Fin 256) :
    val_main_v1 (F := Ideal) x0 x1 (ix3 b l q) = Cert.Attn.scores (qf x0 b) (cf x1 b) q l := by
  rw [val_main_v1_apply]
  unfold Cert.Attn.scores
  refine Finset.sum_congr rfl fun d _ => ?_
  have el : lidx_main_v1 (ix3 b l q) d = ix3 b d l := by
    funext a; apply Fin.ext; fin_cases a <;> rfl
  have er : ridx_main_v1 (ix3 b l q) d = ix3 b d q := by
    funext a; apply Fin.ext; fin_cases a <;> rfl
  rw [el, er, mul_comm]

/-- The maximum over the query positions, at each context position. -/
theorem v4_ix (b : Fin 128) (l : Fin 1024) :
    val_main_v4 (F := Ideal) x0 x1 (ix2 b l) = Cert.Attn.colMax (Cert.Attn.scores (qf x0 b) (cf x1 b)) l := by
  rw [val_main_v4_apply, val_main_v3_apply, val_main_cst_0_apply, Ideal.maximumf_def, Ideal.ofBits_def,
    Cert.Attn.ofBits_neg_inf, max_eq_right bot_le]
  unfold val_main_v2 Cert.Attn.colMax
  refine (reduceMax3 (val_main_v1 (F := Ideal) x0 x1) _ (by decide) _ b l).trans ?_
  exact congrArg (fun f => Finset.fold max (⊥ : EReal) f (Finset.univ : Finset (Fin 256))) (funext fun q => v1_ix x0 x1 b l q)

/-- The exponentials of the first softmax. -/
theorem v8_ix (b : Fin 128) (l : Fin 1024) (q : Fin 256) :
    val_main_v8 (F := Ideal) x0 x1 (ix3 b l q)
      = Ideal.exp (Cert.Attn.scores (qf x0 b) (cf x1 b) q l - Cert.Attn.colMax (Cert.Attn.scores (qf x0 b) (cf x1 b)) l) := by
  have e6 : idx_main_v5 (idx_main_v6 (ix3 b l q)) = ix2 b l := by
    funext a; apply Fin.ext; fin_cases a <;> rfl
  rw [val_main_v8_apply, val_main_v7_apply, val_main_v6_apply, val_main_v5_apply, e6, v1_ix, v4_ix,
    Ideal.hostUnary_exp_def, Ideal.subf_def]

/-- The first softmax, in the layout (batch, context position, query position). -/
theorem v12_ix (b : Fin 128) (l : Fin 1024) (q : Fin 256) :
    val_main_v12 (F := Ideal) x0 x1 (ix3 b l q) = Cert.Attn.colSoftmax (Cert.Attn.scores (qf x0 b) (cf x1 b)) q l := by
  have e11 : idx_main_v10 (idx_main_v11 (ix3 b l q)) = ix2 b l := by
    funext a; apply Fin.ext; fin_cases a <;> rfl
  have e9 : ∀ k : Fin 256, idx_main_v9 (ix2 b l) k = ix3 b l k := fun k => by
    funext a; apply Fin.ext; fin_cases a <;> rfl
  rw [val_main_v12_apply, val_main_v11_apply, val_main_v10_apply, e11, val_main_v9_apply, val_main_cst_1_apply,
    Ideal.ofBits_def, Cert.Attn.ofBits_zero, zero_add, v8_ix, Ideal.hostDivf_def]
  unfold Cert.Attn.colSoftmax
  refine congrArg (Ideal.div _) (Finset.sum_congr rfl fun k _ => ?_)
  rw [e9, v8_ix]

/-- The first softmax times the temperature, in the layout (batch, query position, context position). -/
theorem v15_ix (b : Fin 128) (q : Fin 256) (l : Fin 1024) :
    val_main_v15 (F := Ideal) x0 x1 (ix3 b q l)
      = Cert.Attn.scaled (Ideal.ofBits .f32 0x40800000#32) (qf x0 b) (cf x1 b) q l := by
  have e13 : idx_main_v13 (ix3 b q l) = ix3 b l q := by
    funext a; apply Fin.ext; fin_cases a <;> rfl
  rw [val_main_v15_apply, val_main_v13_apply, e13, v12_ix, val_main_v14_apply, val_main_cst_2_apply,
    Ideal.ofBits_def, Ideal.mulf_def]
  rfl

/-- The maximum over the context positions, at each query position. -/
theorem v18_ix (b : Fin 128) (q : Fin 256) :
    val_main_v18 (F := Ideal) x0 x1 (ix2 b q)
      = Cert.Attn.rowMax (Cert.Attn.scaled (Ideal.ofBits .f32 0x40800000#32) (qf x0 b) (cf x1 b)) q := by
  rw [val_main_v18_apply, val_main_v17_apply, val_main_cst_4_apply, Ideal.maximumf_def, Ideal.ofBits_def,
    Cert.Attn.ofBits_neg_inf, max_eq_right bot_le]
  unfold val_main_v16 Cert.Attn.rowMax
  refine (reduceMax3 (val_main_v15 (F := Ideal) x0 x1) _ (by decide) _ b q).trans ?_
  exact congrArg (fun f => Finset.fold max (⊥ : EReal) f (Finset.univ : Finset (Fin 1024))) (funext fun l => v15_ix x0 x1 b q l)

/-- The exponentials of the second softmax. -/
theorem v22_ix (b : Fin 128) (q : Fin 256) (l : Fin 1024) :
    val_main_v22 (F := Ideal) x0 x1 (ix3 b q l)
      = Ideal.exp (Cert.Attn.scaled (Ideal.ofBits .f32 0x40800000#32) (qf x0 b) (cf x1 b) q l
          - Cert.Attn.rowMax (Cert.Attn.scaled (Ideal.ofBits .f32 0x40800000#32) (qf x0 b) (cf x1 b)) q) := by
  have e20 : idx_main_v19 (idx_main_v20 (ix3 b q l)) = ix2 b q := by
    funext a; apply Fin.ext; fin_cases a <;> rfl
  rw [val_main_v22_apply, val_main_v21_apply, val_main_v20_apply, val_main_v19_apply, e20, v15_ix, v18_ix,
    Ideal.hostUnary_exp_def, Ideal.subf_def]

end Stages

/-- The attention map of the reference: both softmaxes shifted by their maximum. -/
theorem attn_ix (x0 : (⟨S128x128x256, .f32⟩ : BufTy).Contents (Elt Ideal)) (x1 : (⟨S128x128x32x32, .f32⟩ : BufTy).Contents (Elt Ideal))
    (b : Fin 128) (q : Fin 256) (l : Fin 1024) :
    val_main_v26 (F := Ideal) x0 x1 (ix3 b q l)
      = Cert.Attn.attnShift (Ideal.ofBits .f32 0x40800000#32)
          (fun (d : Fin 128) (q' : Fin 256) => x0 (ix3 b d q'))
          (fun (d : Fin 128) (l' : Fin 1024) => val_main_v0 (F := Ideal) x1 (ix3 b d l')) q l := by
  have e25 : idx_main_v24 (idx_main_v25 (ix3 b q l)) = ix2 b q := by
    funext a; apply Fin.ext; fin_cases a <;> rfl
  have e23 : ∀ k : Fin 1024, idx_main_v23 (ix2 b q) k = ix3 b q k := fun k => by
    funext a; apply Fin.ext; fin_cases a <;> rfl
  rw [val_main_v26_apply, val_main_v25_apply, val_main_v24_apply, e25, val_main_v23_apply, val_main_cst_5_apply,
    Ideal.ofBits_def, Cert.Attn.ofBits_zero, zero_add, v22_ix, Ideal.hostDivf_def]
  unfold Cert.Attn.attnShift Cert.Attn.rowSoftmaxShift
  refine congrArg (Ideal.div _) (Finset.sum_congr rfl fun k _ => ?_)
  rw [e23, v22_ix]

/-- The weighted context of the reference: the context slab contracted with the attention map over the context positions. -/
theorem weighted_ix (x0 : (⟨S128x128x256, .f32⟩ : BufTy).Contents (Elt Ideal)) (x1 : (⟨S128x128x32x32, .f32⟩ : BufTy).Contents (Elt Ideal))
    (b : Fin 128) (d : Fin 128) (q : Fin 256) :
    val_main_v27 (F := Ideal) x0 x1 (ix3 b d q)
      = Cert.Attn.weighted (fun (d' : Fin 128) (l' : Fin 1024) => val_main_v0 (F := Ideal) x1 (ix3 b d' l'))
          (fun (q' : Fin 256) (l' : Fin 1024) => val_main_v26 (F := Ideal) x0 x1 (ix3 b q' l')) d q := by
  rw [val_main_v27_apply]
  unfold Cert.Attn.weighted
  refine Finset.sum_congr rfl fun k _ => ?_
  have el : lidx_main_v27 (ix3 b d q) k = ix3 b d k := by
    funext a; apply Fin.ext; fin_cases a <;> rfl
  have er : ridx_main_v27 (ix3 b d q) k = ix3 b q k := by
    funext a; apply Fin.ext; fin_cases a <;> rfl
  rw [el, er]

end Cert.RefStages

end
-- ==== Proof.AttnMath.lean ====
/-
  The shifted softmax equals the unshifted softmax on real data.

  Over the extended reals, when every entry of the two slabs is a real number, every stage of the attention
  map is again (the coercion of) a real number: the scores are finite sums of products of reals, a maximum of
  finitely many reals over a nonempty index set is a real, the exponential of a real is a positive real, and a
  sum of positive reals over a nonempty index set is a positive real, so the quotient by it is the real
  quotient.  On reals the shift cancels:
      exp (y l − m) / Σ_l' exp (y l' − m) = (exp (y l) / exp m) / ((Σ_l' exp (y l')) / exp m)
                                          = exp (y l) / Σ_l' exp (y l').
-/
import proofs.«174905_j14336600834794_2_alg».proof.Proof.AttnSpec
import Idealize.ShloMosaic.PureOps.Ideal

noncomputable section

namespace Cert.Attn

open Idealize.ShloMosaic

variable {D Q L : Type} [Fintype D] [Fintype Q] [Fintype L]

/-! ### Coercions of reals into the extended reals -/

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the binary maximum. -/
theorem coe_max (a b : ℝ) : max (a : EReal) (b : EReal) = ((max a b : ℝ) : EReal) :=
  ((EReal.coe_strictMono.monotone).map_max).symm

/-- The maximum, folded from `⊥`, of finitely many reals over a nonempty index set is a real. -/
theorem fold_max_coe {ι : Type} {s : Finset ι} (hs : s.Nonempty) (f : ι → ℝ) :
    ∃ m : ℝ, s.fold max ⊥ (fun i => (f i : EReal)) = (m : EReal) := by
  induction hs using Finset.Nonempty.cons_induction with
  | singleton a => exact ⟨f a, by rw [Finset.fold_singleton]; exact max_eq_left bot_le⟩
  | cons a s ha hs ih =>
    obtain ⟨m, hm⟩ := ih
    exact ⟨max (f a) m, by rw [Finset.fold_cons, hm, coe_max]⟩

/-- The quotient of two reals, the divisor not zero, is the real quotient. -/
theorem div_coe_coe (a z : ℝ) (hz : z ≠ 0) :
    Ideal.div (a : EReal) (z : EReal) = ((a / z : ℝ) : EReal) := by
  have hz' : ¬ ((z : EReal) = 0) := by exact_mod_cast hz
  unfold Ideal.div
  rw [if_neg hz', ← EReal.coe_inv, ← EReal.coe_mul, div_eq_mul_inv]

/-! ### One softmax over a finite nonempty index set, on reals -/

/-- A sum of exponentials over a nonempty index set is positive. -/
theorem sum_exp_pos {ι : Type} [Fintype ι] [Nonempty ι] (y : ι → ℝ) : 0 < ∑ j, Real.exp (y j) :=
  Finset.sum_pos (fun j _ => Real.exp_pos (y j)) Finset.univ_nonempty

/-- The softmax of real data shifted by a real `m`, computed in the extended reals, is the real quotient. -/
theorem softmax_shift_coe {ι : Type} [Fintype ι] [Nonempty ι] (y : ι → ℝ) (m : ℝ) (i : ι) :
    Ideal.div (Ideal.exp ((y i : EReal) - (m : EReal))) (∑ j, Ideal.exp ((y j : EReal) - (m : EReal)))
      = ((Real.exp (y i - m) / ∑ j, Real.exp (y j - m) : ℝ) : EReal) := by
  simp only [← EReal.coe_sub, Ideal.exp_coe, ← coe_finset_sum]
  exact div_coe_coe _ _ (sum_exp_pos fun j => y j - m).ne'

/-- The unshifted softmax of real data, computed in the extended reals, is the real quotient. -/
theorem softmax_plain_coe {ι : Type} [Fintype ι] [Nonempty ι] (y : ι → ℝ) (i : ι) :
    Ideal.div (Ideal.exp (y i : EReal)) (∑ j, Ideal.exp (y j : EReal))
      = ((Real.exp (y i) / ∑ j, Real.exp (y j) : ℝ) : EReal) := by
  simp only [Ideal.exp_coe, ← coe_finset_sum]
  exact div_coe_coe _ _ (sum_exp_pos y).ne'

/-- The core identity on reals: a common shift `m` cancels in the softmax quotient. -/
theorem softmax_shift_real {ι : Type} [Fintype ι] (y : ι → ℝ) (m : ℝ) (i : ι) :
    Real.exp (y i - m) / ∑ j, Real.exp (y j - m) = Real.exp (y i) / ∑ j, Real.exp (y j) := by
  simp only [Real.exp_sub, ← Finset.sum_div]
  exact div_div_div_cancel_right₀ (Real.exp_pos m).ne' _ _

/-! ### The second softmax: shifted equals plain on real data -/

/-- On real data the softmax over the second index shifted by the row's maximum is the unshifted one. -/
theorem rowSoftmaxShift_eq_plain [Nonempty L] (y : Q → L → EReal)
    (hy : ∀ q l, ∃ r : ℝ, y q l = (r : EReal)) : rowSoftmaxShift y = rowSoftmaxPlain y := by
  choose yr hyr using hy
  obtain rfl : y = fun q l => (yr q l : EReal) := funext fun q => funext fun l => hyr q l
  funext q l
  obtain ⟨m, hm⟩ := fold_max_coe (Finset.univ_nonempty (α := L)) (fun l => yr q l)
  unfold rowSoftmaxShift rowSoftmaxPlain rowMax
  rw [hm]
  exact (softmax_shift_coe (fun l => yr q l) m l).trans
    ((congrArg _ (softmax_shift_real (fun l => yr q l) m l)).trans
      (softmax_plain_coe (fun l => yr q l) l).symm)

/-! ### Every stage before the second softmax is real on real data -/

/-- The scores of real slabs are real. -/
theorem scores_coe (qr : D → Q → ℝ) (cr : D → L → ℝ) (q : Q) (l : L) :
    scores (fun d q => (qr d q : EReal)) (fun d l => (cr d l : EReal)) q l
      = ((∑ d, qr d q * cr d l : ℝ) : EReal) := by
  unfold scores
  simp only [← EReal.coe_mul, ← coe_finset_sum]

/-- The first softmax of a real table is real. -/
theorem colSoftmax_real [Nonempty Q] (s : Q → L → ℝ) (q : Q) (l : L) :
    ∃ r : ℝ, colSoftmax (fun q l => (s q l : EReal)) q l = (r : EReal) := by
  obtain ⟨m, hm⟩ := fold_max_coe (Finset.univ_nonempty (α := Q)) (fun q => s q l)
  refine ⟨Real.exp (s q l - m) / ∑ q', Real.exp (s q' l - m), ?_⟩
  unfold colSoftmax colMax
  rw [hm]
  exact softmax_shift_coe (fun q => s q l) m q

/-- The first softmax of the scores of real slabs, times a real temperature, is real. -/
theorem scaled_real [Nonempty Q] (κ : EReal) (hκ : ∃ r : ℝ, κ = (r : EReal))
    (qf : D → Q → EReal) (cf : D → L → EReal)
    (hq : ∀ d q, ∃ r : ℝ, qf d q = (r : EReal)) (hc : ∀ d l, ∃ r : ℝ, cf d l = (r : EReal)) :
    ∀ q l, ∃ r : ℝ, scaled κ qf cf q l = (r : EReal) := by
  obtain ⟨κr, rfl⟩ := hκ
  choose qr hqr using hq
  choose cr hcr using hc
  obtain rfl : qf = fun d q => (qr d q : EReal) := funext fun d => funext fun q => hqr d q
  obtain rfl : cf = fun d l => (cr d l : EReal) := funext fun d => funext fun l => hcr d l
  intro q l
  have hs : scores (fun d q => (qr d q : EReal)) (fun d l => (cr d l : EReal))
      = fun q l => ((∑ d, qr d q * cr d l : ℝ) : EReal) :=
    funext fun q => funext fun l => scores_coe qr cr q l
  obtain ⟨a, ha⟩ := colSoftmax_real (fun q l => ∑ d, qr d q * cr d l) q l
  refine ⟨a * κr, ?_⟩
  unfold scaled
  rw [hs, ha, ← EReal.coe_mul]

/-! ### The two attention maps agree on real data -/

/-- With real slabs and a real temperature, the attention map with the shifted second softmax is the
    attention map with the unshifted one. -/
theorem attnShift_eq_attnPlain [Nonempty Q] [Nonempty L]
    (κ : EReal) (hκ : ∃ r : ℝ, κ = (r : EReal))
    (qf : D → Q → EReal) (cf : D → L → EReal)
    (hq : ∀ d q, ∃ r : ℝ, qf d q = (r : EReal)) (hc : ∀ d l, ∃ r : ℝ, cf d l = (r : EReal)) :
    attnShift κ qf cf = attnPlain κ qf cf :=
  rowSoftmaxShift_eq_plain (scaled κ qf cf) (scaled_real κ hκ qf cf hq hc)

end Cert.Attn

end
-- ==== Proof.Bridge.lean ====
/-
  The reference computes the same two arrays.

  Under the precondition every entry of the query array and of the context array is a real number; a row-major
  re-laying keeps that. For real slabs the softmax shifted by the row's maximum is the unshifted one
  (`Cert.Attn.attnShift_eq_attnPlain`), so the reference's attention stage is the attention array, batch element by
  batch element, and its weighted-context stage is the weighted-context array.
-/
import proofs.«174905_j14336600834794_2_alg».proof.Proof.RefStages
import proofs.«174905_j14336600834794_2_alg».proof.Proof.AttnMath
import proofs.«174905_j14336600834794_2_alg».proof.Proof.AttnArrays
import proofs.«174905_j14336600834794_2_alg».proof.Proof.AttnConsts

noncomputable section

namespace Cert.Bridge

open Cert.ReferenceIdeal Cert.ReferenceIdeal.Read Idealize.ShloMosaic Idealize.ShloMosaic.ValueIdx Cert.AttnArrays

/-- The flattened context array has real entries when the context array has. -/
theorem ctx_real (x1 : (⟨S128x128x32x32, .f32⟩ : BufTy).Contents (Elt Ideal))
    (h1 : ∀ i, ∃ r : ℝ, x1 i = (r : EReal)) (i : S128x128x1024.Idx) :
    ∃ r : ℝ, val_main_v0 (F := Ideal) x1 i = (r : EReal) := by
  rw [val_main_v0_apply]
  exact h1 _

/-- The reference's attention stage is the attention array of the query array and the flattened context array. -/
theorem attn_bridge (x0 : (⟨S128x128x256, .f32⟩ : BufTy).Contents (Elt Ideal))
    (x1 : (⟨S128x128x32x32, .f32⟩ : BufTy).Contents (Elt Ideal))
    (h0 : ∀ i, ∃ r : ℝ, x0 i = (r : EReal)) (h1 : ∀ i, ∃ r : ℝ, x1 i = (r : EReal)) :
    val_main_v26 (F := Ideal) x0 x1 = attnArr x0 (val_main_v0 (F := Ideal) x1) := by
  funext i
  obtain ⟨b, q, l, rfl⟩ : ∃ (b : Fin 128) (q : Fin 256) (l : Fin 1024), i = ix3 b q l := ⟨i 0, i 1, i 2, eq_ix3 i⟩
  rw [Cert.RefStages.attn_ix, attnArr_ix3]
  unfold attnAt
  exact congrFun (congrFun (Cert.Attn.attnShift_eq_attnPlain _ ⟨4, Cert.Attn.ofBits_four⟩ _ _
    (fun d q' => h0 _) (fun d l' => ctx_real x1 h1 _)) q) l

/-- The reference's weighted-context stage is the weighted-context array. -/
theorem weighted_bridge (x0 : (⟨S128x128x256, .f32⟩ : BufTy).Contents (Elt Ideal))
    (x1 : (⟨S128x128x32x32, .f32⟩ : BufTy).Contents (Elt Ideal))
    (h0 : ∀ i, ∃ r : ℝ, x0 i = (r : EReal)) (h1 : ∀ i, ∃ r : ℝ, x1 i = (r : EReal)) :
    val_main_v27 (F := Ideal) x0 x1 = weightedArr x0 (val_main_v0 (F := Ideal) x1) := by
  funext i
  obtain ⟨b, d, q, rfl⟩ : ∃ (b : Fin 128) (d : Fin 128) (q : Fin 256), i = ix3 b d q := ⟨i 0, i 1, i 2, eq_ix3 i⟩
  rw [Cert.RefStages.weighted_ix, weightedArr_ix3]
  unfold weightedAt
  refine congrArg (fun e => Cert.Attn.weighted _ e d q) (funext fun q' => funext fun l' => ?_)
  rw [attn_bridge x0 x1 h0 h1, attnArr_ix3]

end Cert.Bridge

end
-- ==== Proof.FiniteInputs.lean ====
/-
  The precondition `finite_inputs`, read back at the ideal instance. The printed predicate takes the absolute value of
  each entry of two float arrays, compares it (strictly below) with the constant +∞, reduces each array of comparison
  bits by `and` over all axes, and takes the `and` of the two results. At the ideal instance a float is an extended
  real, the absolute value of `a` is `max a (-a)`, and the comparison is the order's: so the predicate holding says
  `max a (-a) < ⊤` at every entry `a` of both arrays, which excludes `⊤` and `⊥` and leaves a real number.
-/
import proofs.«174905_j14336600834794_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic

/-- The bit pattern 0x7F800000 of binary32 denotes +∞. -/
theorem ofBits_pos_inf : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value `max a (-a)` is strictly below `⊤` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The element fact: the comparison bit "|a| < +∞" being 1 at the ideal instance says that `a` is a real number. -/
theorem real_of_cmp (a : Ideal .f32)
    (h : FloatOps.cmpf .olt (FloatOps.absf a) (FloatOps.ofBits (F := Ideal) .f32 0x7F800000#32) = 1#1) :
    ∃ r : ℝ, a = (r : EReal) := by
  rw [Ideal.cmpf_def, Ideal.absf_def] at h
  have hc : (FloatOps.ofBits (F := Ideal) .f32 0x7F800000#32 : Ideal .f32) = (⊤ : EReal) := ofBits_pos_inf
  rw [hc] at h
  unfold Ideal.cmp at h
  rw [ofBool_eq_one] at h
  exact real_of_abs_lt_top a (of_decide_eq_true h)

instance : Subsingleton Cert.Pre_finite_inputs.S_.Idx := ⟨fun a b => funext fun d => d.elim0⟩

/-- The precondition decoded: every entry of both arrays is a real number. -/
theorem real_of_pre [Cert.Pre_finite_inputs.Facts]
    (x0 : FVec Ideal Cert.Pre_finite_inputs.S128x128x256 .f32) (x1 : FVec Ideal Cert.Pre_finite_inputs.S128x128x32x32 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_cmp (x0 i) (Host.reduce_andi_all _ _ _ _ _ ha i)
  · exact real_of_cmp (x1 i) (Host.reduce_andi_all _ _ _ _ _ hb i)

end Cert.FiniteInputs

end
-- ==== Proof.lean ====
/-
  Two softmaxes between two contractions: the kernel against its jnp reference, over the extended reals.

  Both programs take a query array Q [128, 128, 256] (batch, feature, query position) and a context array
  [128, 128, 32, 32], flattened to C [128, 128, 1024] (batch, feature, context position), and for every batch
  element b form
    the scores            s(q, l) = Σ_d Q(b, d, q) · C(b, d, l),
    a first softmax over the query positions q, shifted by the maximum over q,
    its product with the temperature 4,
    a second softmax over the context positions l           — the attention map e(q, l),
    the weighted context  w(d, q) = Σ_l C(b, d, l) · e(q, l),
  and return w and e re-laid as [128, 256, 32, 32]. The kernel does it two batch elements per grid point, contracts
  with the query as the left factor, and takes the second softmax WITHOUT subtracting the row's maximum; the
  reference contracts with the context as the left factor, computes the first softmax in the transposed layout, and
  subtracts the row's maximum in both softmaxes. Products of extended reals commute and a change of float format is
  the identity there, so the only real difference is the second shift, and exp(y − M) / Σ exp(y' − M) =
  exp(y) / Σ exp(y') holds as soon as every y is a real number. That is where the precondition is used: finite inputs
  make the scores real, hence the first softmax real, hence its multiples by 4 real.

  The modules: AttnSpec (the mathematics of one batch element), AttnMath (the shift law), AttnConsts (the three float
  literals), AttnArrays (the two results as whole arrays), LibBatchOps (rank-3 reductions and broadcasts at an
  index), KernelBlock (the kernel's body at an index), KernelArrays (from blocks to arrays, the row-major re-layings,
  the kernel's run), RefStages (the reference's stages at an index), Bridge (the reference's stages are the same two
  arrays, for real inputs), FiniteInputs (the precondition says every entry is real).
-/
import proofs.«174905_j14336600834794_2_alg».proof.Defs
import proofs.«174905_j14336600834794_2_alg».proof.Proof.Gen.Kernel
import proofs.«174905_j14336600834794_2_alg».proof.Proof.Gen.Kernel.Skeleton
import proofs.«174905_j14336600834794_2_alg».proof.Proof.Gen.Kernel.Launch
import proofs.«174905_j14336600834794_2_alg».proof.Proof.Gen.Kernel.Points
import proofs.«174905_j14336600834794_2_alg».proof.Proof.Gen.Kernel.Frame
import proofs.«174905_j14336600834794_2_alg».proof.Proof.Gen.KernelIdeal
import proofs.«174905_j14336600834794_2_alg».proof.Proof.Gen.KernelIdeal.Skeleton
import proofs.«174905_j14336600834794_2_alg».proof.Proof.Gen.KernelIdeal.Launch
import proofs.«174905_j14336600834794_2_alg».proof.Proof.Gen.KernelIdeal.Points
import proofs.«174905_j14336600834794_2_alg».proof.Proof.Gen.KernelIdeal.Frame
import proofs.«174905_j14336600834794_2_alg».proof.Proof.Gen.ReferenceIdeal
import proofs.«174905_j14336600834794_2_alg».proof.Proof.Gen.Pre_finite_inputs
import proofs.«174905_j14336600834794_2_alg».proof.Proof.Gen.ReferenceIdeal.Run
import proofs.«174905_j14336600834794_2_alg».proof.Proof.Gen.ReferenceIdeal.Read
import proofs.«174905_j14336600834794_2_alg».proof.Proof.KernelArrays
import proofs.«174905_j14336600834794_2_alg».proof.Proof.Bridge
import proofs.«174905_j14336600834794_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs: its run read back, the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- No operation of the kernel was rewritten when it was read on the extended reals. -/
theorem preserves : Cert.preserves_Kernel_KernelIdeal := trivial

/-- From memories that agree on the two arguments, both programs end with the weighted-context array and the
    re-laid attention array of the query argument and the flattened context argument: the kernel by its run read
    block by block, the reference by its stages and, the inputs being real, the shift law of the second softmax. -/
theorem algebraic : Cert.algebraic_KernelIdeal_ReferenceIdeal := by
  intro m ρ m' ρ' hpre hagree
  refine ⟨_, _, Cert.KernelArrays.run_args m ρ, ?_⟩
  refine (θ_run Cert.ReferenceIdeal.defs _ _).mono (fun _ h c => ?_)
    (Cert.ReferenceIdeal.Value.run (F := Ideal) m' ρ')
  obtain ⟨hr0, hr1⟩ := Cert.FiniteInputs.real_of_pre _ _ (hpre c)
  refine ⟨(h c).1.trans ?_, (h c).2.1.trans ?_, (h c).2.2.1, (h c).2.2.2⟩
  · rw [Cert.ReferenceIdeal.Read.val_main_v27_eq, (hagree c).1, (hagree c).2,
      Cert.Bridge.weighted_bridge _ _ hr0 hr1]
    rfl
  · rw [Cert.ReferenceIdeal.Read.val_main_v28_eq, (hagree c).1, (hagree c).2]
    unfold Cert.ReferenceIdeal.Read.val_main_v28
    rw [Cert.Bridge.attn_bridge _ _ hr0 hr1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
